-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S128 .f32) (main_arg3 : FVec F S128x64 .f32) (main_arg4 : FVec F S128x64 .f32) (main_arg5 : FVec F S64 .f32) (main_arg6 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S2000x128 : Shape := ⟨2, ![2000, 128]⟩
abbrev S2000x1 : Shape := ⟨2, ![2000, 1]⟩
abbrev S1x128 : Shape := ⟨2, ![1, 128]⟩
abbrev S100000x64 : Shape := ⟨2, ![100000, 64]⟩
abbrev S2000x64 : Shape := ⟨2, ![2000, 64]⟩
abbrev S1x64 : Shape := ⟨2, ![1, 64]⟩

abbrev nBuf : Space → Nat
  | .hbm => 61
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x64, .f32⟩
  | .local _ .vmem, ⟨15, _⟩ => ⟨S128x64, .f32⟩
  | .local _ .vmem, ⟨16, _⟩ => ⟨S64, .f32⟩
  | .local _ .vmem, ⟨17, _⟩ => ⟨S2000x64, .f32⟩
  | .local _ .vmem, ⟨18, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S100000x1_S100000x128_0_1 : S100000x1.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  @main is four segments: the host operations that build the neighbour sums and the reciprocal degrees, the first
  layer's grid, the host operations that aggregate the hidden features, and the second layer's grid. The library's
  theorem for a program of several grids gives, at the end of every weakly fair execution, every unscoped buffer at
  the last boundary's contents. Read at the result's buffer this is what the second grid's write-backs leave in its
  output array; read at an argument it is the launch contents.
-/
import proofs.«114832_j64141041599038_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result's buffer then holds what the second
    grid's write-backs leave in its output array, from the contents the second grid is entered with, and every
    argument holds what it was launched with. -/
theorem run : θ_run defs (onTc (τ := τ) (main (F := F))) ⟨m, fun _ => 0, ρ⟩ (fun r => ∀ c : Dev nD,
      r.2.mem ((c.tc : Thread nD τ).loc main_v41) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v41 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Layers

end
-- ==== Proof.Spec.lean ====
/-
  The two dense layers as functions of whole arrays, index by index, over the extended reals.

  With n the neighbour sums, x the features, r a column holding one factor per node, w and b the first layer's
  weights and bias, the hidden feature of node i in column j is
      max ( Σ_k ((n[i,k] + x[i,k]) · r[i,0]) · w[k,j]  +  b[j] , 0 ),
  and with h the hidden features, g the neighbour means, ws and wn the second layer's two weight matrices and b its
  bias, the output of node i in column j is
      ( Σ_k h[i,k] · ws[k,j]  +  b[j] )  +  Σ_k g[i,k] · wn[k,j].
-/
import Idealize.ShloMosaic.PureOps.Ideal
import Idealize.ShloMosaic.Lib.ValueIdx

noncomputable section

namespace Cert.Sage

open Idealize.ShloMosaic Idealize.ShloMosaic.ValueIdx

abbrev Nodes128 : Shape := ⟨2, ![100000, 128]⟩
abbrev Nodes64 : Shape := ⟨2, ![100000, 64]⟩
abbrev Nodes1 : Shape := ⟨2, ![100000, 1]⟩
abbrev Sq128 : Shape := ⟨2, ![128, 128]⟩
abbrev Mat128x64 : Shape := ⟨2, ![128, 64]⟩
abbrev Row128 : Shape := ⟨1, ![128]⟩
abbrev Row64 : Shape := ⟨1, ![64]⟩

/-- The hidden feature of node i in column j. -/
def hiddenAt (x n : Nodes128.Idx → EReal) (r : Nodes1.Idx → EReal) (w : Sq128.Idx → EReal) (b : Row128.Idx → EReal)
    (i : Fin 100000) (j : Fin 128) : EReal :=
  max ((∑ k : Fin 128, ((n (ix2 i k) + x (ix2 i k)) * r (ix2 i (0 : Fin 1))) * w (ix2 k j)) + b (ix1 j)) 0

/-- The hidden features as one array. -/
def hidden (x n : Nodes128.Idx → EReal) (r : Nodes1.Idx → EReal) (w : Sq128.Idx → EReal) (b : Row128.Idx → EReal) :
    Nodes128.Idx → EReal := fun i => hiddenAt x n r w b (i 0) (i 1)

/-- The output of node i in column j. -/
def outputAt (h g : Nodes128.Idx → EReal) (ws wn : Mat128x64.Idx → EReal) (b : Row64.Idx → EReal)
    (i : Fin 100000) (j : Fin 64) : EReal :=
  ((∑ k : Fin 128, h (ix2 i k) * ws (ix2 k j)) + b (ix1 j)) + ∑ k : Fin 128, g (ix2 i k) * wn (ix2 k j)

/-- The output as one array. -/
def output (h g : Nodes128.Idx → EReal) (ws wn : Mat128x64.Idx → EReal) (b : Row64.Idx → EReal) :
    Nodes64.Idx → EReal := fun i => outputAt h g ws wn b (i 0) (i 1)

end Cert.Sage

end
-- ==== Proof.LibScatterSign.lean ====
/-
  The sign of an accumulating scatter over the extended reals.

  At the ideal values `x.at[idx].add(u)` is, entry by entry, the operand's entry plus the sum of the update entries
  that land on it. So if no operand entry and no update entry is negative, no entry of the result is: a degree count
  (ones scattered into zeros) is such a result, and 1 + it, or its maximum with 1, is then a divisor that is not zero.
  Stated for any shapes, any index width and any scatter dimension numbers.
-/
import Idealize.ShloMosaic.PureOps.Ideal
import Idealize.ShloMosaic.PureOps.Contract

noncomputable section

namespace Idealize.ShloMosaic.ScatterSign

open Idealize.ShloMosaic

/-- An accumulating scatter of entries that are not negative into entries that are not negative has no negative
    entry: each is an operand entry plus a sum of update entries. -/
theorem scatterAdd_nonneg {s si su : Shape} {φ : FTy} (d : ScatterDims s si su) {w : Nat} (x : FVec Ideal s φ) (idx : IVec si w)
    (upd : FVec Ideal su φ) (hx : ∀ i, (0 : EReal) ≤ x i) (hu : ∀ j, (0 : EReal) ≤ upd j) (i : s.Idx) :
    (0 : EReal) ≤ Host.scatterAdd d x idx upd i := by
  unfold Host.scatterAdd
  rw [Ideal.hostScatterAdd_def]
  unfold Ideal.hostScatterAdd
  exact add_nonneg (hx i) (Finset.sum_nonneg fun j _ => hu j)

/-- One plus an entry that is not negative is not zero. -/
theorem add_one_ne_zero_of_nonneg {d : EReal} (h : 0 ≤ d) : d + 1 ≠ 0 := by
  have h1 : (1 : EReal) ≤ d + 1 := le_add_of_nonneg_left h
  intro e; rw [e] at h1; exact absurd h1 (by simp)

/-- The maximum of anything with one is not zero. -/
theorem max_one_ne_zero (d : EReal) : max d 1 ≠ 0 :=
  ne_of_gt (lt_of_lt_of_le zero_lt_one (le_max_right _ _))

end Idealize.ShloMosaic.ScatterSign

end
-- ==== Proof.Graph.lean ====
/-
  The graph side of the two programs as named functions of whole arrays, over the extended reals.

  An edge list (1600000 sources and 1600000 targets, node numbers) determines
    the degree of node i        — the number 0 + Σ 1 over the edges whose target is i,
    the aggregate of an array y — row i is 0 + Σ y[source] over the edges whose target is i, a negative source
                                  moved up by the number of nodes first, exactly as the indexing operation does.
  Both programs apply exactly these operations; nothing here is opened except the degree, to see that it is a sum
  of ones and so never negative.
-/
import proofs.«114832_j64141041599038_1_alg».proof.Proof.Spec
import Idealize.ShloMosaic.PureOps.Ideal.Laws
import Idealize.ShloMosaic.Lib.IdealHost
import proofs.«114832_j64141041599038_1_alg».proof.Proof.LibScatterSign
import Idealize.ShloMosaic.Lib.Pipeline.Value

noncomputable section

namespace Cert.Sage

open Idealize.ShloMosaic Idealize.ShloMosaic.ValueIdx Idealize.ShloMosaic.ScatterSign

abbrev EdgePairs : Shape := ⟨2, ![2, 1600000]⟩
abbrev EdgeRow : Shape := ⟨2, ![1, 1600000]⟩
abbrev Edges : Shape := ⟨1, ![1600000]⟩
abbrev EdgeCol : Shape := ⟨2, ![1600000, 1]⟩
abbrev EdgeFeat : Shape := ⟨2, ![1600000, 128]⟩
abbrev Nodes : Shape := ⟨1, ![100000]⟩
abbrev Single : Shape := ⟨0, ![]⟩

theorem rowSlice0 : EdgePairs.Slices ![0, 0] EdgeRow := by decide
theorem rowSlice1 : EdgePairs.Slices ![1, 0] EdgeRow := by decide
theorem rowCast : EdgeRow.ShapeCasts Edges := by decide
theorem toEdges : Single.BroadcastsInDim Edges (![] : Fin 0 → Fin Edges.rank) := by decide
theorem toNodes : Single.BroadcastsInDim Nodes (![] : Fin 0 → Fin Nodes.rank) := by decide
theorem toNodes128 : Single.BroadcastsInDim Nodes128 (![] : Fin 0 → Fin Nodes128.rank) := by decide
theorem edgesToCol : Edges.BroadcastsInDim EdgeCol (![0] : Fin 1 → Fin EdgeCol.rank) := by decide
theorem nodesToCol : Nodes.BroadcastsInDim Nodes1 (![0] : Fin 1 → Fin Nodes1.rank) := by decide
theorem colToRows : Nodes1.BroadcastsInDim Nodes128 (![0, 1] : Fin 2 → Fin Nodes128.rank) := by decide
theorem intoNodes_wf : ScatterDims.WF Nodes EdgeCol Edges [] [0] [0] 1 := by decide
theorem intoRows_wf : ScatterDims.WF Nodes128 EdgeCol EdgeFeat [1] [0] [0] 1 := by decide
theorem fromRows_wf : GatherDims.WF Nodes128 EdgeCol EdgeFeat [1] [0] [] [0] [] 1 ![1, 128] := by decide

/-- Scatter one number per edge into one number per node. -/
def intoNodes : ScatterDims Nodes EdgeCol Edges where
  updateWindowDims := []
  insertedWindowDims := [0]
  scatterDimsToOperandDims := [0]
  indexVectorDim := 1
  wf := intoNodes_wf

/-- Scatter one row per edge into one row per node. -/
def intoRows : ScatterDims Nodes128 EdgeCol EdgeFeat where
  updateWindowDims := [1]
  insertedWindowDims := [0]
  scatterDimsToOperandDims := [0]
  indexVectorDim := 1
  wf := intoRows_wf

/-- Gather one row per edge out of one row per node. -/
def fromRows : GatherDims Nodes128 EdgeCol EdgeFeat where
  offsetDims := [1]
  collapsedSliceDims := [0]
  operandBatchingDims := []
  startIndicesBatchingDims := []
  startIndexMap := [0]
  indexVectorDim := 1
  sliceSizes := ![1, 128]
  wf := fromRows_wf

/-- One row of the edge list. -/
def edgeRow0 (e : IVec EdgePairs 32) : IVec Edges 32 := shapeCast Edges (extractStridedSlice EdgeRow ![0, 0] e rowSlice0) rowCast
def edgeRow1 (e : IVec EdgePairs 32) : IVec Edges 32 := shapeCast Edges (extractStridedSlice EdgeRow ![1, 0] e rowSlice1) rowCast

/-- One per node. -/
def ones : FVec Ideal Nodes .f32 := broadcastInDim Nodes ![] toNodes (constant Single .f32 0x3F800000#32)

/-- The number of edges into each node, from the targets. -/
def degreeOf (dst : IVec Edges 32) : FVec Ideal Nodes .f32 :=
  Host.scatterAdd intoNodes (broadcastInDim Nodes ![] toNodes (constant Single .f32 0x00000000#32))
    (broadcastInDim EdgeCol ![0] edgesToCol dst)
    (broadcastInDim Edges ![] toEdges (constant Single .f32 0x3F800000#32))

/-- Each node's sum of the rows of y at the sources of the edges into it; a negative source is moved up by the number
    of nodes. -/
def aggregateOf (src dst : IVec Edges 32) (y : FVec Ideal Nodes128 .f32) : FVec Ideal Nodes128 .f32 :=
  Host.scatterAdd intoRows (broadcastInDim Nodes128 ![] toNodes128 (constant Single .f32 0x00000000#32))
    (broadcastInDim EdgeCol ![0] edgesToCol dst)
    (Host.gather fromRows y
      (broadcastInDim EdgeCol ![0] edgesToCol
        (select (cmpi .slt src (broadcastInDim Edges ![] toEdges (constantI Single 32 0#32)))
          (addi src (broadcastInDim Edges ![] toEdges (constantI Single 32 100000#32))) src)))

/-- The column 1 / (degree + 1). -/
def recipPlusOneOf (deg : FVec Ideal Nodes .f32) : FVec Ideal Nodes1 .f32 :=
  broadcastInDim Nodes1 ![0] nodesToCol (Host.divf ones (addf deg ones))

/-- The neighbour means: the aggregate times 1 / max(degree, 1) along each row. -/
def neighbourMeanOf (src dst : IVec Edges 32) (deg : FVec Ideal Nodes .f32) (y : FVec Ideal Nodes128 .f32) :
    FVec Ideal Nodes128 .f32 :=
  mulf (aggregateOf src dst y)
    (broadcastInDim Nodes128 ![0, 1] colToRows (broadcastInDim Nodes1 ![0] nodesToCol (Host.divf ones (maximumf deg ones))))

/-- The same as functions of the edge list. -/
def degree (e : IVec EdgePairs 32) : FVec Ideal Nodes .f32 := degreeOf (edgeRow1 e)
def aggregate (e : IVec EdgePairs 32) (y : FVec Ideal Nodes128 .f32) : FVec Ideal Nodes128 .f32 := aggregateOf (edgeRow0 e) (edgeRow1 e) y

/-! ## The degree is never negative -/

theorem ones_apply (i : Nodes.Idx) : ones i = 1 := by
  unfold ones
  rw [broadcastInDim_scalar_apply]
  exact Ideal.ofBits_one_f32

theorem degreeOf_nonneg (dst : IVec Edges 32) (i : Nodes.Idx) : (0 : EReal) ≤ degreeOf dst i := by
  unfold degreeOf
  refine scatterAdd_nonneg _ _ _ _ (fun i => ?_) (fun j => ?_) i
  · rw [broadcastInDim_scalar_apply]
    show (0 : EReal) ≤ Ideal.ofBits .f32 0x00000000#32
    rw [Ideal.ofBits_zero_f32]
  · rw [broadcastInDim_scalar_apply]
    show (0 : EReal) ≤ Ideal.ofBits .f32 0x3F800000#32
    rw [Ideal.ofBits_one_f32]
    exact zero_le_one

/-- degree + 1 is not zero. -/
theorem degree_add_one_ne_zero (dst : IVec Edges 32) (i : Nodes.Idx) : degreeOf dst i + 1 ≠ 0 :=
  add_one_ne_zero_of_nonneg (degreeOf_nonneg dst i)

/-! ## The reciprocal columns read at an index -/

/-- The column 1 / (degree + 1) at node p. -/
theorem recipPlusOneOf_apply (deg : FVec Ideal Nodes .f32) (p : Fin 100000) :
    recipPlusOneOf deg (ix2 p (0 : Fin 1)) = Ideal.div 1 (deg (ix1 p) + 1) := by
  unfold recipPlusOneOf
  rw [broadcastInDim_apply (![0] : Fin 1 → Fin Nodes1.rank) nodesToCol _ (ix2 p (0 : Fin 1)) (ix1 p) (fun a => match a with
    | ⟨0, _⟩ => by show p.val = if (100000 : Nat) = 1 then 0 else p.val; rw [if_neg (by decide)])]
  rw [hostDivf_apply, addf_apply, ones_apply]

/-- The neighbour mean at node p, column k: the aggregate there times 1 / max(degree, 1). -/
theorem neighbourMeanOf_apply (src dst : IVec Edges 32) (deg : FVec Ideal Nodes .f32) (y : FVec Ideal Nodes128 .f32)
    (p : Fin 100000) (k : Fin 128) :
    neighbourMeanOf src dst deg y (ix2 p k) = aggregateOf src dst y (ix2 p k) * Ideal.div 1 (max (deg (ix1 p)) 1) := by
  unfold neighbourMeanOf
  rw [mulf_apply]
  rw [broadcastInDim_apply (![0, 1] : Fin 2 → Fin Nodes128.rank) colToRows _ (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])]
  rw [broadcastInDim_apply (![0] : Fin 1 → Fin Nodes1.rank) nodesToCol _ (ix2 p (0 : Fin 1)) (ix1 p) (fun a => match a with
    | ⟨0, _⟩ => by show p.val = if (100000 : Nat) = 1 then 0 else p.val; rw [if_neg (by decide)])]
  rw [hostDivf_apply, maximumf_apply, ones_apply]

/-! ## The whole computation -/

/-- The two layers from the seven arguments: features, first weights and bias, the second layer's neighbour and self
    weights, its bias, the edge list. -/
def value (x : Nodes128.Idx → EReal) (w1 : Sq128.Idx → EReal) (b1 : Row128.Idx → EReal) (w2n w2s : Mat128x64.Idx → EReal)
    (b2 : Row64.Idx → EReal) (e : IVec EdgePairs 32) : Nodes64.Idx → EReal :=
  output (hidden x (aggregate e x) (recipPlusOneOf (degree e)) w1 b1)
    (neighbourMeanOf (edgeRow0 e) (edgeRow1 e) (degree e) (hidden x (aggregate e x) (recipPlusOneOf (degree e)) w1 b1))
    w2s w2n b2

/-- The whole computation at node p, column q. -/
theorem value_apply (x : Nodes128.Idx → EReal) (w1 : Sq128.Idx → EReal) (b1 : Row128.Idx → EReal) (w2n w2s : Mat128x64.Idx → EReal)
    (b2 : Row64.Idx → EReal) (e : IVec EdgePairs 32) (p : Fin 100000) (q : Fin 64) :
    value x w1 b1 w2n w2s b2 e (ix2 p q)
      = outputAt (hidden x (aggregate e x) (recipPlusOneOf (degree e)) w1 b1)
          (neighbourMeanOf (edgeRow0 e) (edgeRow1 e) (degree e) (hidden x (aggregate e x) (recipPlusOneOf (degree e)) w1 b1))
          w2s w2n b2 p q := rfl

end Cert.Sage

end
-- ==== Proof.LibColumn.lean ====
/-
  A matrix's row sums kept as a column, read at an index.

  `jnp.sum(x, axis=1, keepdims=True)` of an `[a, b]` matrix lowers to a lane reduction into `[a]`, a reshape to the
  column `[a, 1]`, and, where the column meets an `[a, c]` matrix, a broadcast along the second axis. Read at an
  index each step only moves coordinates:
    the reduction at `r`       is  Σ_k x[r, k],
    the column at `(r, u)`     is  the vector at `r`      (`u` ranges over the one coordinate of the unit axis),
    the broadcast at `(r, j)`  is  the column at `(r, 0)`.
  The statements are over arbitrary extents and any element type; the sum is over the extended reals.
-/
import Idealize.ShloMosaic.PureOps.Ideal
import Idealize.ShloMosaic.PureOps.Ideal.Laws
import Idealize.ShloMosaic.Lib.Pipeline.Value
import Idealize.ShloMosaic.Lib.ValueIdx

noncomputable section

namespace Idealize.ShloMosaic.ColumnIdx

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its second axis reads, at `r`, the sum of row `r`: the zero accumulator adds
    nothing, and the index with `k` put back on the reduced axis is `(r, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

end Idealize.ShloMosaic.ColumnIdx

end
-- ==== Proof.Bodies.lean ====
/-
  The two grid bodies read at an index, at the ideal values.

  First layer, block row p, column q, from the blocks n (neighbour sums), x (features), r (the column of reciprocal
  degrees), w (weights), b (bias):
      max ( Σ_k ((n[p,k] + x[p,k]) · r[p,0]) · w[k,q]  +  b[q] , 0 ).
  Second layer, from the blocks h (hidden features), g (neighbour means), ws, wn (the two weight matrices), b:
      ( Σ_k h[p,k] · ws[k,q]  +  b[q] )  +  Σ_k g[p,k] · wn[k,q].
  A change of float format is the identity here and the matrix unit's product into the zero accumulator is the
  plain sum over the contracted axis, so nothing but moving coordinates is involved.
-/
import proofs.«114832_j64141041599038_1_alg».proof.Proof.Gen.KernelIdeal.Skeleton
import proofs.«114832_j64141041599038_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen
open Idealize.ShloMosaic Idealize.ShloMosaic.ValueIdx Idealize.ShloMosaic.ColumnIdx

/-! ## The matrix unit's two products as sums over the 128 contracted columns -/

theorem dot128_lhs0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot128_rhs1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Rows of the 2000×128 left operand against columns of the 128×128 right operand. -/
theorem dot128_sum (l : S2000x128.Idx → EReal) (r : S128x128.Idx → EReal) (p : Fin 2000) (q : Fin 128) :
    (∑ k : dot_S2000x128_S128x128_S2000x128_1_0_0_1_n_n.contr.Idx, l (dot_S2000x128_S128x128_S2000x128_1_0_0_1_n_n.lhsIdx (ix2 p q) k) * r (dot_S2000x128_S128x128_S2000x128_1_0_0_1_n_n.rhsIdx (ix2 p q) k))
      = ∑ k : Fin 128, l (ix2 p k) * r (ix2 k q) := by
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact dot128_lhs0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact dot128_rhs1 _ _)
  rw [el, er]

theorem dot64_lhs0 (i : S2000x64.Idx) (k : dot_S2000x128_S128x64_S2000x64_1_0_0_1_n_n.contr.Idx) : (dot_S2000x128_S128x64_S2000x64_1_0_0_1_n_n.lhsIdx i k 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dot64_rhs1 (i : S2000x64.Idx) (k : dot_S2000x128_S128x64_S2000x64_1_0_0_1_n_n.contr.Idx) : (dot_S2000x128_S128x64_S2000x64_1_0_0_1_n_n.rhsIdx i k 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Rows of the 2000×128 left operand against columns of a 128×64 right operand. -/
theorem dot64_sum (l : S2000x128.Idx → EReal) (r : S128x64.Idx → EReal) (p : Fin 2000) (q : Fin 64) :
    (∑ k : dot_S2000x128_S128x64_S2000x64_1_0_0_1_n_n.contr.Idx, l (dot_S2000x128_S128x64_S2000x64_1_0_0_1_n_n.lhsIdx (ix2 p q) k) * r (dot_S2000x128_S128x64_S2000x64_1_0_0_1_n_n.rhsIdx (ix2 p q) k))
      = ∑ k : Fin 128, l (ix2 p k) * r (ix2 k q) := by
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact dot64_lhs0 _ _
      | ⟨1, _⟩ => exact (dot_S2000x128_S128x64_S2000x64_1_0_0_1_n_n.lhsIdx_val_of_single rfl _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (dot_S2000x128_S128x64_S2000x64_1_0_0_1_n_n.rhsIdx_val_of_single rfl _ _).trans hk
      | ⟨1, _⟩ => exact dot64_rhs1 _ _)
  rw [el, er]

/-! ## The first layer's body -/

/-- The first layer's stored block at row p, column q. -/
theorem layer1_apply (n x : Vec Ideal S2000x128 .f32) (r : Vec Ideal S2000x1 .f32) (w : Vec Ideal S128x128 .f32)
    (b : Vec Ideal S128 .f32) (p : Fin 2000) (q : Fin 128) :
    k0_pay1 (F := Ideal) n x r w b (ix2 p q)
      = max ((∑ k : Fin 128, ((n (ix2 p k) + x (ix2 p k)) * r (ix2 p (0 : Fin 1))) * w (ix2 k q)) + b (ix1 q)) 0 := by
  unfold k0_pay1
  simp only [shapeCast_self]
  rw [maximumf_apply, addf_apply, broadcast_apply]
  simp only [matmul]
  rw [Ideal.matmul_constant_zero_apply, dot128_sum]
  rw [broadcastTo_1b_ab_apply, shapeCast_a_1a_apply]
  have e0 : (Scalar.ofBits (F := Ideal) .f32 0x00000000#32 : EReal) = 0 := Ideal.ofBits_zero_f32
  rw [e0]
  refine congrArg (fun s => max (s + b (ix1 q)) 0) (Finset.sum_congr rfl fun k _ => ?_)
  rw [truncf_apply, truncf_apply, mulf_apply, addf_apply, broadcastTo_a1_ab_apply]

/-! ## The second layer's body -/

/-- The second layer's stored block at row p, column q. -/
theorem layer2_apply (h g : Vec Ideal S2000x128 .f32) (ws wn : Vec Ideal S128x64 .f32) (b : Vec Ideal S64 .f32)
    (p : Fin 2000) (q : Fin 64) :
    k1_pay1 (F := Ideal) h g ws wn b (ix2 p q)
      = ((∑ k : Fin 128, h (ix2 p k) * ws (ix2 k q)) + b (ix1 q)) + ∑ k : Fin 128, g (ix2 p k) * wn (ix2 k q) := by
  unfold k1_pay1
  simp only [shapeCast_self]
  rw [addf_apply, addf_apply]
  simp only [matmul]
  rw [Ideal.matmul_constant_zero_apply, Ideal.matmul_constant_zero_apply, dot64_sum, dot64_sum]
  rw [broadcastTo_1b_ab_apply, shapeCast_a_1a_apply]
  simp only [truncf_apply]

end Cert.KernelIdeal.Layers

end
-- ==== Proof.Region0.lean ====
/-
  The first layer's grid: what its fifty write-backs leave in the hidden-feature array.

  Grid point t stages rows 2000·t … 2000·t + 1999 of the features, of the neighbour sums and of the column of
  factors, the whole weight matrix and the whole bias, and writes back the same rows of the result. So the block
  written at t is the restriction to those rows of ONE function of the arrays the grid is entered with (`hidden`),
  and since the fifty row ranges cover the 100000 rows the array ends holding that function.
-/
import proofs.«114832_j64141041599038_1_alg».proof.Proof.Gen.KernelIdeal.Frame
import proofs.«114832_j64141041599038_1_alg».proof.Proof.Bodies
import proofs.«114832_j64141041599038_1_alg».proof.Proof.Spec
import Idealize.ShloMosaic.Lib.Pipeline.Value

set_option maxRecDepth 16384

noncomputable section

namespace Cert.KernelIdeal.Layers

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the grid: the row-blocked windows sit at block row t, the weights and the bias at
    their one block. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each staged block read off its array -/

theorem read0_x (c : Dev nD) (t : Fin cfg0.N) (p : Fin 2000) (k : Fin 128) (i : Fin 100000) (hi : i.val = t.val * 2000 + p.val) :
    iblk0 V c 0 t (ix2 p k) = V c main_arg0 (ix2 i k) := by
  show V c main_arg0 (((cfg0.win 0).blk t).view.emb (ix2 p k)) = _
  obtain ⟨e, e', -⟩ := index0 t
  refine congrArg (V c main_arg0) (funext fun a => Fin.ext ?_)
  match a with
  | ⟨0, _⟩ => show win0_0.index t (0 : Fin 2) * 2000 + 1 * p.val = i.val; omega
  | ⟨1, _⟩ => show win0_0.index t (1 : Fin 2) * 128 + 1 * k.val = k.val; omega

theorem read0_n (c : Dev nD) (t : Fin cfg0.N) (p : Fin 2000) (k : Fin 128) (i : Fin 100000) (hi : i.val = t.val * 2000 + p.val) :
    iblk0 V c 1 t (ix2 p k) = V c main_v17 (ix2 i k) := by
  show V c main_v17 (((cfg0.win 1).blk t).view.emb (ix2 p k)) = _
  obtain ⟨-, -, e, e', -⟩ := index0 t
  refine congrArg (V c main_v17) (funext fun a => Fin.ext ?_)
  match a with
  | ⟨0, _⟩ => show win0_1.index t (0 : Fin 2) * 2000 + 1 * p.val = i.val; omega
  | ⟨1, _⟩ => show win0_1.index t (1 : Fin 2) * 128 + 1 * k.val = k.val; omega

theorem read0_r (c : Dev nD) (t : Fin cfg0.N) (p : Fin 2000) (i : Fin 100000) (hi : i.val = t.val * 2000 + p.val) :
    iblk0 V c 2 t (ix2 p (0 : Fin 1)) = V c main_v22 (ix2 i (0 : Fin 1)) := by
  show V c main_v22 (((cfg0.win 2).blk t).view.emb (ix2 p (0 : Fin 1))) = _
  obtain ⟨-, -, -, -, e, e', -⟩ := index0 t
  refine congrArg (V c main_v22) (funext fun a => Fin.ext ?_)
  match a with
  | ⟨0, _⟩ => show win0_2.index t (0 : Fin 2) * 2000 + 1 * p.val = i.val; omega
  | ⟨1, _⟩ => show win0_2.index t (1 : Fin 2) * 1 + 1 * 0 = 0; omega

theorem read0_w (c : Dev nD) (t : Fin cfg0.N) (k q : Fin 128) :
    iblk0 V c 3 t (ix2 k q) = V c main_arg1 (ix2 k q) := by
  show V c main_arg1 (((cfg0.win 3).blk t).view.emb (ix2 k q)) = _
  obtain ⟨-, -, -, -, -, -, e, e', -⟩ := index0 t
  refine congrArg (V c main_arg1) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read0_b (c : Dev nD) (t : Fin cfg0.N) (q : Fin 128) :
    iblk0 V c 4 t (ix1 q) = V c main_arg2 (ix1 q) := by
  show V c main_arg2 (((cfg0.win 4).blk t).view.emb (ix1 q)) = _
  obtain ⟨-, -, -, -, -, -, -, -, e, -⟩ := index0 t
  refine congrArg (V c main_arg2) (funext fun a => Fin.ext ?_)
  match a with
  | ⟨0, _⟩ => show win0_4.index t (0 : Fin 1) * 128 + 1 * q.val = q.val; omega

/-- Row p, column q of the block written back at t is row 2000·t + p, column q of the array. -/
theorem place0 (t : Fin cfg0.N) (p : Fin 2000) (q : Fin 128) (i : Fin 100000) (hi : i.val = t.val * 2000 + p.val) :
    ((cfg0.win 5).blk t).view.emb (ix2 p q) = (ix2 i q : S100000x128.Idx) := by
  obtain ⟨-, -, -, -, -, -, -, -, -, e, e'⟩ := index0 t
  refine funext fun a => Fin.ext ?_
  match a with
  | ⟨0, _⟩ => show win0_5.index t (0 : Fin 2) * 2000 + 1 * p.val = i.val; omega
  | ⟨1, _⟩ => show win0_5.index t (1 : Fin 2) * 128 + 1 * q.val = q.val; omega

/-! ## What a point writes back, and the array at the end -/

/-- The block written back at t is the rows of `hidden` that t owns. -/
theorem flushed0 (c : Dev nD) (t : Fin cfg0.N) :
    (dat0 (F := Ideal) V c).flushed 5 t
      = ((cfg0.win 5).blk t).view.read (Elt Ideal)
          (hidden (V c main_arg0) (V c main_v17) (V c main_v22) (V c main_arg1) (V c main_arg2)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S2000x1) zeros2,
    View.ld_unit_zero (S := S128x128) zeros2, View.ld_unit_zero (S := S128) zeros1]
  funext j
  obtain ⟨p, q, rfl⟩ : ∃ (p : Fin 2000) (q : Fin 128), j = ix2 p q := ⟨j 0, j 1, eq_ix2 j⟩
  have ht : t.val < 50 := t.isLt
  have hp : p.val < 2000 := p.isLt
  obtain ⟨i, hi⟩ : ∃ i : Fin 100000, i.val = t.val * 2000 + p.val := ⟨⟨t.val * 2000 + p.val, by omega⟩, rfl⟩
  refine (layer1_apply (iblk0 V c 1 t) (iblk0 V c 0 t) (iblk0 V c 2 t) (iblk0 V c 3 t) (iblk0 V c 4 t) p q).trans ?_
  refine Eq.trans ?_ (congrArg (hidden (V c main_arg0) (V c main_v17) (V c main_v22) (V c main_arg1) (V c main_arg2)) (place0 t p q i hi)).symm
  show _ = hiddenAt (V c main_arg0) (V c main_v17) (V c main_v22) (V c main_arg1) (V c main_arg2) i q
  unfold hiddenAt
  simp only [fun k => read0_x V c t p k i hi, fun k => read0_n V c t p k i hi, read0_r V c t p i hi,
    fun k => read0_w V c t k q, read0_b V c t q]

/-- An index of the array is in point t's block iff each coordinate is in the block's range on its axis. -/
theorem mem_rows0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- Every row belongs to the point that owns its range of 2000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 2000 < 50 := by omega
  refine ⟨⟨(i 0).val / 2000, ht⟩, flush0_5 _, ?_⟩
  rw [mem_rows0]
  obtain ⟨-, -, -, -, -, -, -, -, -, e, e'⟩ := index0 ⟨(i 0).val / 2000, ht⟩
  have e0 : win0_5.index ⟨(i 0).val / 2000, ht⟩ (0 : Fin 2) = (i 0).val / 2000 := e
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    omega

/-- After the grid the hidden-feature array holds `hidden` of the arrays the grid was entered with. -/
theorem hidden_array (c : Dev nD) :
    (dat0 (F := Ideal) V c).arrAt 5 cfg0.N
      = hidden (V c main_arg0) (V c main_v17) (V c main_v22) (V c main_arg1) (V c main_arg2) :=
  (dat0 (F := Ideal) V c).arrAt_eq_of_cover 5 _ (fun t _ => flushed0 V c t) cover0

end Cert.KernelIdeal.Layers

end
-- ==== Proof.Region1.lean ====
/-
  The second layer's grid: what its fifty write-backs leave in the result array.

  Grid point t stages rows 2000·t … 2000·t + 1999 of the hidden features and of the neighbour means, both weight
  matrices and the bias whole, and writes back the same rows of the result; the block written at t is those rows of
  ONE function of the arrays the grid is entered with (`output`), and the fifty row ranges cover the 100000 rows.
-/
import proofs.«114832_j64141041599038_1_alg».proof.Proof.Gen.KernelIdeal.Frame
import proofs.«114832_j64141041599038_1_alg».proof.Proof.Bodies
import proofs.«114832_j64141041599038_1_alg».proof.Proof.Spec
import Idealize.ShloMosaic.Lib.Pipeline.Value

set_option maxRecDepth 16384

noncomputable section

namespace Cert.KernelIdeal.Layers

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2' : (![0, 0] : Fin 2 → Nat) = fun _ => 0 := funext fun a => by fin_cases a <;> rfl
theorem zeros1' : (![0] : Fin 1 → Nat) = fun _ => 0 := funext fun a => by fin_cases a; rfl

/-- The printed index maps over the grid: the row-blocked windows sit at block row t, the weights and the bias at
    their one block. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## Each staged block read off its array -/

theorem read1_h (c : Dev nD) (t : Fin cfg1.N) (p : Fin 2000) (k : Fin 128) (i : Fin 100000) (hi : i.val = t.val * 2000 + p.val) :
    iblk1 V c 0 t (ix2 p k) = V c main_v23 (ix2 i k) := by
  show V c main_v23 (((cfg1.win 0).blk t).view.emb (ix2 p k)) = _
  obtain ⟨e, e', -⟩ := index1 t
  refine congrArg (V c main_v23) (funext fun a => Fin.ext ?_)
  match a with
  | ⟨0, _⟩ => show win1_0.index t (0 : Fin 2) * 2000 + 1 * p.val = i.val; omega
  | ⟨1, _⟩ => show win1_0.index t (1 : Fin 2) * 128 + 1 * k.val = k.val; omega

theorem read1_g (c : Dev nD) (t : Fin cfg1.N) (p : Fin 2000) (k : Fin 128) (i : Fin 100000) (hi : i.val = t.val * 2000 + p.val) :
    iblk1 V c 1 t (ix2 p k) = V c main_v40 (ix2 i k) := by
  show V c main_v40 (((cfg1.win 1).blk t).view.emb (ix2 p k)) = _
  obtain ⟨-, -, e, e', -⟩ := index1 t
  refine congrArg (V c main_v40) (funext fun a => Fin.ext ?_)
  match a with
  | ⟨0, _⟩ => show win1_1.index t (0 : Fin 2) * 2000 + 1 * p.val = i.val; omega
  | ⟨1, _⟩ => show win1_1.index t (1 : Fin 2) * 128 + 1 * k.val = k.val; omega

theorem read1_ws (c : Dev nD) (t : Fin cfg1.N) (k : Fin 128) (q : Fin 64) :
    iblk1 V c 2 t (ix2 k q) = V c main_arg4 (ix2 k q) := by
  show V c main_arg4 (((cfg1.win 2).blk t).view.emb (ix2 k q)) = _
  obtain ⟨-, -, -, -, e, e', -⟩ := index1 t
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

theorem read1_wn (c : Dev nD) (t : Fin cfg1.N) (k : Fin 128) (q : Fin 64) :
    iblk1 V c 3 t (ix2 k q) = V c main_arg3 (ix2 k q) := by
  show V c main_arg3 (((cfg1.win 3).blk t).view.emb (ix2 k q)) = _
  obtain ⟨-, -, -, -, -, -, e, e', -⟩ := index1 t
  refine congrArg (V c main_arg3) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

theorem read1_b (c : Dev nD) (t : Fin cfg1.N) (q : Fin 64) :
    iblk1 V c 4 t (ix1 q) = V c main_arg5 (ix1 q) := by
  show V c main_arg5 (((cfg1.win 4).blk t).view.emb (ix1 q)) = _
  obtain ⟨-, -, -, -, -, -, -, -, e, -⟩ := index1 t
  refine congrArg (V c main_arg5) (funext fun a => Fin.ext ?_)
  match a with
  | ⟨0, _⟩ => show win1_4.index t (0 : Fin 1) * 64 + 1 * q.val = q.val; omega

/-- Row p, column q of the block written back at t is row 2000·t + p, column q of the array. -/
theorem place1 (t : Fin cfg1.N) (p : Fin 2000) (q : Fin 64) (i : Fin 100000) (hi : i.val = t.val * 2000 + p.val) :
    ((cfg1.win 5).blk t).view.emb (ix2 p q) = (ix2 i q : S100000x64.Idx) := by
  obtain ⟨-, -, -, -, -, -, -, -, -, e, e'⟩ := index1 t
  refine funext fun a => Fin.ext ?_
  match a with
  | ⟨0, _⟩ => show win1_5.index t (0 : Fin 2) * 2000 + 1 * p.val = i.val; omega
  | ⟨1, _⟩ => show win1_5.index t (1 : Fin 2) * 64 + 1 * q.val = q.val; omega

/-! ## What a point writes back, and the array at the end -/

/-- The block written back at t is the rows of `output` that t owns. -/
theorem flushed1 (c : Dev nD) (t : Fin cfg1.N) :
    (dat1 (F := Ideal) V c).flushed 5 t
      = ((cfg1.win 5).blk t).view.read (Elt Ideal)
          (output (V c main_v23) (V c main_v40) (V c main_arg4) (V c main_arg3) (V c main_arg5)) := by
  show (cfg1.win 5).cut (grid1.coords t) ((dat1 V c).after 5 t) = _
  rw [after1_5]
  unfold out1_5
  rw [View.canon_unit_zero zeros2']
  simp only [View.ld_unit_zero (S := S2000x128) zeros2', View.ld_unit_zero (S := S128x64) zeros2',
    View.ld_unit_zero (S := S64) zeros1']
  funext j
  obtain ⟨p, q, rfl⟩ : ∃ (p : Fin 2000) (q : Fin 64), j = ix2 p q := ⟨j 0, j 1, eq_ix2 j⟩
  have ht : t.val < 50 := t.isLt
  have hp : p.val < 2000 := p.isLt
  obtain ⟨i, hi⟩ : ∃ i : Fin 100000, i.val = t.val * 2000 + p.val := ⟨⟨t.val * 2000 + p.val, by omega⟩, rfl⟩
  refine (layer2_apply (iblk1 V c 0 t) (iblk1 V c 1 t) (iblk1 V c 2 t) (iblk1 V c 3 t) (iblk1 V c 4 t) p q).trans ?_
  refine Eq.trans ?_ (congrArg (output (V c main_v23) (V c main_v40) (V c main_arg4) (V c main_arg3) (V c main_arg5)) (place1 t p q i hi)).symm
  show _ = outputAt (V c main_v23) (V c main_v40) (V c main_arg4) (V c main_arg3) (V c main_arg5) i q
  unfold outputAt
  simp only [fun k => read1_h V c t p k i hi, fun k => read1_g V c t p k i hi,
    fun k => read1_ws V c t k q, fun k => read1_wn V c t k q, read1_b V c t q]

/-- An index of the array is in point t's block iff each coordinate is in the block's range on its axis. -/
theorem mem_rows1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v41).slice (win1_5.rect t)).set ↔ _
  rw [View.set_slice_whole, Rect.mem_set_unit]
  exact Iff.rfl

/-- Every row belongs to the point that owns its range of 2000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 2000 < 50 := by omega
  refine ⟨⟨(i 0).val / 2000, ht⟩, flush1_5 _, ?_⟩
  rw [mem_rows1]
  obtain ⟨-, -, -, -, -, -, -, -, -, e, e'⟩ := index1 ⟨(i 0).val / 2000, ht⟩
  have e0 : win1_5.index ⟨(i 0).val / 2000, ht⟩ (0 : Fin 2) = (i 0).val / 2000 := e
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    omega
  | ⟨1, _⟩ =>
    show win1_5.index ⟨(i 0).val / 2000, ht⟩ (1 : Fin 2) * 64 ≤ (i 1).val ∧ (i 1).val < win1_5.index ⟨(i 0).val / 2000, ht⟩ (1 : Fin 2) * 64 + 64
    omega

/-- After the grid the result array holds `output` of the arrays the grid was entered with. -/
theorem output_array (c : Dev nD) :
    (dat1 (F := Ideal) V c).arrAt 5 cfg1.N
      = output (V c main_v23) (V c main_v40) (V c main_arg4) (V c main_arg3) (V c main_arg5) :=
  (dat1 (F := Ideal) V c).arrAt_eq_of_cover 5 _ (fun t _ => flushed1 V c t) cover1

end Cert.KernelIdeal.Layers

end
-- ==== Proof.KernelValue.lean ====
/-
  The idealized kernel's result as one function of its arguments.

  Between the launch and the first grid the host operations leave, in the buffers the grid reads, the features as
  launched, their aggregate over the edges, and the column 1 / (degree + 1); the first grid leaves `hidden` of those.
  Between the grids the host operations leave the neighbour means of the hidden features, the hidden features
  themselves untouched; the second grid leaves `output` of those. Each stretch of host operations is read once, from
  arbitrary contents, as the composed term of what it reads.
-/
import proofs.«114832_j64141041599038_1_alg».proof.Proof.Gen.KernelIdeal.Frame
import proofs.«114832_j64141041599038_1_alg».proof.Proof.Graph
import proofs.«114832_j64141041599038_1_alg».proof.Proof.Region0
import proofs.«114832_j64141041599038_1_alg».proof.Proof.Region1
import Idealize.ShloMosaic.Lib.StableHlo.Run

set_option maxRecDepth 16384

noncomputable section

namespace Cert.KernelIdeal.Layers

open Cert.KernelIdeal Cert.KernelIdeal.Gen Cert.Sage
open Idealize.ShloMosaic Idealize.ShloMosaic.TcCoe Idealize.SL.Sem Idealize.ShloMosaic.StableHlo

/-! ## The first stretch of host operations, from any contents -/

section Stretches

variable (Wx : Valuation τ sig (Elt Ideal))

set_option maxHeartbeats 4000000 in
theorem first_sources : StableHlo.after hostOps0 Wx (Proc.devRef .tc main_v1) = edgeRow0 (Wx (Proc.devRef .tc main_arg6)) := by
  dsimp only [hostOps0]; after_results_simp <;> rfl

set_option maxHeartbeats 4000000 in
theorem first_targets : StableHlo.after hostOps0 Wx (Proc.devRef .tc main_v3) = edgeRow1 (Wx (Proc.devRef .tc main_arg6)) := by
  dsimp only [hostOps0]; after_results_simp <;> rfl

set_option maxHeartbeats 4000000 in
theorem first_degree : StableHlo.after hostOps0 Wx (Proc.devRef .tc main_v7) = degreeOf (edgeRow1 (Wx (Proc.devRef .tc main_arg6))) := by
  dsimp only [hostOps0]; after_results_simp <;> rfl

set_option maxHeartbeats 4000000 in
theorem first_aggregate : StableHlo.after hostOps0 Wx (Proc.devRef .tc main_v17)
    = aggregateOf (edgeRow0 (Wx (Proc.devRef .tc main_arg6))) (edgeRow1 (Wx (Proc.devRef .tc main_arg6))) (Wx (Proc.devRef .tc main_arg0)) := by
  dsimp only [hostOps0]; after_results_simp <;> rfl

set_option maxHeartbeats 4000000 in
theorem first_recip : StableHlo.after hostOps0 Wx (Proc.devRef .tc main_v22)
    = recipPlusOneOf (degreeOf (edgeRow1 (Wx (Proc.devRef .tc main_arg6)))) := by
  dsimp only [hostOps0]; after_results_simp <;> rfl

set_option maxHeartbeats 4000000 in
theorem first_arg0 : StableHlo.after hostOps0 Wx (Proc.devRef .tc main_arg0) = Wx (Proc.devRef .tc main_arg0) := by
  dsimp only [hostOps0]; after_results_simp <;> rfl
set_option maxHeartbeats 4000000 in
theorem first_arg1 : StableHlo.after hostOps0 Wx (Proc.devRef .tc main_arg1) = Wx (Proc.devRef .tc main_arg1) := by
  dsimp only [hostOps0]; after_results_simp <;> rfl
set_option maxHeartbeats 4000000 in
theorem first_arg2 : StableHlo.after hostOps0 Wx (Proc.devRef .tc main_arg2) = Wx (Proc.devRef .tc main_arg2) := by
  dsimp only [hostOps0]; after_results_simp <;> rfl
set_option maxHeartbeats 4000000 in
theorem first_arg3 : StableHlo.after hostOps0 Wx (Proc.devRef .tc main_arg3) = Wx (Proc.devRef .tc main_arg3) := by
  dsimp only [hostOps0]; after_results_simp <;> rfl
set_option maxHeartbeats 4000000 in
theorem first_arg4 : StableHlo.after hostOps0 Wx (Proc.devRef .tc main_arg4) = Wx (Proc.devRef .tc main_arg4) := by
  dsimp only [hostOps0]; after_results_simp <;> rfl
set_option maxHeartbeats 4000000 in
theorem first_arg5 : StableHlo.after hostOps0 Wx (Proc.devRef .tc main_arg5) = Wx (Proc.devRef .tc main_arg5) := by
  dsimp only [hostOps0]; after_results_simp <;> rfl

/-! ## The second stretch, from any contents -/

set_option maxHeartbeats 4000000 in
theorem second_mean : StableHlo.after hostOps1 Wx (Proc.devRef .tc main_v40)
    = neighbourMeanOf (Wx (Proc.devRef .tc main_v1)) (Wx (Proc.devRef .tc main_v3)) (Wx (Proc.devRef .tc main_v7)) (Wx (Proc.devRef .tc main_v23)) := by
  dsimp only [hostOps1]; after_results_simp <;> rfl

set_option maxHeartbeats 4000000 in
theorem second_hidden : StableHlo.after hostOps1 Wx (Proc.devRef .tc main_v23) = Wx (Proc.devRef .tc main_v23) := by
  dsimp only [hostOps1]; after_results_simp <;> rfl
set_option maxHeartbeats 4000000 in
theorem second_arg3 : StableHlo.after hostOps1 Wx (Proc.devRef .tc main_arg3) = Wx (Proc.devRef .tc main_arg3) := by
  dsimp only [hostOps1]; after_results_simp <;> rfl
set_option maxHeartbeats 4000000 in
theorem second_arg4 : StableHlo.after hostOps1 Wx (Proc.devRef .tc main_arg4) = Wx (Proc.devRef .tc main_arg4) := by
  dsimp only [hostOps1]; after_results_simp <;> rfl
set_option maxHeartbeats 4000000 in
theorem second_arg5 : StableHlo.after hostOps1 Wx (Proc.devRef .tc main_arg5) = Wx (Proc.devRef .tc main_arg5) := by
  dsimp only [hostOps1]; after_results_simp <;> rfl

end Stretches

/-! ## The run's boundaries -/

variable (m : (ℓ : Loc nD τ sig) → Buf (Elt Ideal) ℓ) (ρ : Dev nD → PrngReg)

/-- What the first grid leaves in the hidden-feature array. -/
theorem hidden_value (c : Dev nD) :
    W2 m ρ c (Proc.devRef .tc main_v23)
      = hidden (m ((c : Thread nD τ).loc main_arg0)) (aggregate (m ((c : Thread nD τ).loc main_arg6)) (m ((c : Thread nD τ).loc main_arg0)))
          (recipPlusOneOf (degree (m ((c : Thread nD τ).loc main_arg6)))) (m ((c : Thread nD τ).loc main_arg1)) (m ((c : Thread nD τ).loc main_arg2)) := by
  refine (W2_arr m ρ c 5).trans ?_
  refine (hidden_array (V1 m ρ) c).trans ?_
  have e0 : V1 m ρ c main_arg0 = m ((c : Thread nD τ).loc main_arg0) := first_arg0 (W0 m ρ c)
  have e1 : V1 m ρ c main_arg1 = m ((c : Thread nD τ).loc main_arg1) := first_arg1 (W0 m ρ c)
  have e2 : V1 m ρ c main_arg2 = m ((c : Thread nD τ).loc main_arg2) := first_arg2 (W0 m ρ c)
  have e3 : V1 m ρ c main_v17 = aggregate (m ((c : Thread nD τ).loc main_arg6)) (m ((c : Thread nD τ).loc main_arg0)) := first_aggregate (W0 m ρ c)
  have e4 : V1 m ρ c main_v22 = recipPlusOneOf (degree (m ((c : Thread nD τ).loc main_arg6))) := first_recip (W0 m ρ c)
  rw [e0, e1, e2, e3, e4]

/-- The result array after the run is `value` of the launch contents of the arguments. -/
theorem result_value (c : Dev nD) :
    (dat1 (F := Ideal) (V3 m ρ) c).arrAt 5 cfg1.N
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (output_array (V3 m ρ) c).trans ?_
  have keep : ∀ b : Ref sig .tc, (∀ w, Pipeline.arrRef spec0 w ≠ b) →
      W2 m ρ c (Proc.devRef .tc b) = StableHlo.after hostOps0 (W0 m ρ c) (Proc.devRef .tc b) := fun b hb => W2_of_ne m ρ c b hb
  have h23 : V3 m ρ c main_v23 = _ := (second_hidden (W2 m ρ c)).trans (hidden_value m ρ c)
  have h40 : V3 m ρ c main_v40 = _ := (second_mean (W2 m ρ c)).trans (by
    rw [hidden_value m ρ c, keep main_v1 (by decide), keep main_v3 (by decide), keep main_v7 (by decide),
      first_sources, first_targets, first_degree])
  have h4 : V3 m ρ c main_arg4 = m ((c : Thread nD τ).loc main_arg4) :=
    (second_arg4 (W2 m ρ c)).trans ((keep main_arg4 (by decide)).trans (first_arg4 (W0 m ρ c)))
  have h3 : V3 m ρ c main_arg3 = m ((c : Thread nD τ).loc main_arg3) :=
    (second_arg3 (W2 m ρ c)).trans ((keep main_arg3 (by decide)).trans (first_arg3 (W0 m ρ c)))
  have h5 : V3 m ρ c main_arg5 = m ((c : Thread nD τ).loc main_arg5) :=
    (second_arg5 (W2 m ρ c)).trans ((keep main_arg5 (by decide)).trans (first_arg5 (W0 m ρ c)))
  rw [h23, h40, h4, h3, h5]
  rfl

end Cert.KernelIdeal.Layers

end
-- ==== Proof.RefValue.lean ====
/-
  The reference's result as the same function of its arguments.

  Read one operation at a time, the reference divides where the kernel multiplies by a reciprocal:
      hidden[i,j] = max ( Σ_k ((n[i,k] + x[i,k]) / (deg i + 1)) · w[k,j] + b[j] , 0 ),
      out[i,j]    = ( Σ_k hidden[i,k] · ws[k,j] + b2[j] ) + Σ_k (agg(hidden)[i,k] / max(deg i, 1)) · wn[k,j].
  The divisors deg i + 1 and max(deg i, 1) are never zero (the degree is a sum of ones), and off zero a quotient
  is the product with the reciprocal on every extended real, infinite numerators included; so no finiteness of
  the inputs is used. The gather and the accumulating scatter are the same functions on both sides and are never
  opened.
-/
import proofs.«114832_j64141041599038_1_alg».proof.Proof.Gen.ReferenceIdeal.Read
import proofs.«114832_j64141041599038_1_alg».proof.Proof.Graph
import Idealize.ShloMosaic.Lib.IdealHost

set_option maxRecDepth 16384

noncomputable section

namespace Cert.ReferenceIdeal.Layers

open Cert.ReferenceIdeal Cert.ReferenceIdeal.Gen Cert.ReferenceIdeal.Read Cert.Sage
open Idealize.ShloMosaic Idealize.ShloMosaic.ValueIdx Idealize.ShloMosaic.ScatterSign

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 x4 : (⟨S128x64, .f32⟩ : BufTy).Contents (Elt Ideal))
  (x5 : (⟨S64, .f32⟩ : BufTy).Contents (Elt Ideal)) (x6 : (⟨S2x1600000, .i32⟩ : BufTy).Contents (Elt Ideal))

/-! ## The graph operations are the named ones -/

theorem degree_eq : val_main_v7 (F := Ideal) x6 = degree x6 := rfl
theorem aggregate_eq : val_main_v17 (F := Ideal) x0 x6 = aggregate x6 x0 := rfl
theorem aggregate_hidden_eq : val_main_v38 (F := Ideal) x0 x1 x2 x6 = aggregate x6 (val_main_v28 (F := Ideal) x0 x1 x2 x6) := rfl

/-! ## The two divisors at an index -/

theorem degPlusOne_apply (p : Fin 100000) (k : Fin 128) :
    val_main_v22 (F := Ideal) x6 (ix2 p k) = degree x6 (ix1 p) + 1 := by
  rw [val_main_v22_apply, val_main_v21_apply, val_main_v19_apply, val_main_v20_apply, val_main_cst_3_apply]
  have e : idx_main_v19 (idx_main_v22 (ix2 p k)) = ix1 p := funext fun a => Fin.ext (by match a with | ⟨0, _⟩ => rfl)
  rw [e, degree_eq]
  show degree x6 (ix1 p) + Ideal.ofBits .f32 0x3F800000#32 = _
  rw [Ideal.ofBits_one_f32]

theorem maxDegOne_apply (p : Fin 100000) (k : Fin 128) :
    val_main_v42 (F := Ideal) x6 (ix2 p k) = max (degree x6 (ix1 p)) 1 := by
  rw [val_main_v42_apply, val_main_v41_apply, val_main_v40_apply, val_main_v39_apply, val_main_cst_7_apply]
  have e : idx_main_v41 (idx_main_v42 (ix2 p k)) = ix1 p := funext fun a => Fin.ext (by match a with | ⟨0, _⟩ => rfl)
  rw [e, degree_eq]
  show max (degree x6 (ix1 p)) (Ideal.ofBits .f32 0x3F800000#32) = _
  rw [Ideal.ofBits_one_f32]

/-! ## The hidden features -/

theorem hidden_eq :
    val_main_v28 (F := Ideal) x0 x1 x2 x6 = hidden x0 (aggregate x6 x0) (recipPlusOneOf (degree x6)) x1 x2 := by
  funext i
  obtain ⟨p, q, rfl⟩ : ∃ (p : Fin 100000) (q : Fin 128), i = ix2 p q := ⟨i 0, i 1, eq_ix2 i⟩
  rw [val_main_v28_apply, val_main_v27_apply, val_main_v24_apply, val_main_v26_apply, val_main_v25_apply,
    val_main_call0_v0_apply, val_main_call0_cst_apply]
  have eb : idx_main_v25 (idx_main_v26 (ix2 p q)) = ix1 q := funext fun a => Fin.ext (by match a with | ⟨0, _⟩ => rfl)
  have el : ∀ k : Fin 128, lidx_main_v24 (ix2 p q) k = ix2 p k := fun k => funext fun a => Fin.ext (by
    match a with | ⟨0, _⟩ => rfl | ⟨1, _⟩ => rfl)
  have er : ∀ k : Fin 128, ridx_main_v24 (ix2 p q) k = ix2 k q := fun k => funext fun a => Fin.ext (by
    match a with | ⟨0, _⟩ => rfl | ⟨1, _⟩ => rfl)
  rw [eb]
  show max ((∑ k : Fin 128, val_main_v23 (F := Ideal) x0 x6 (lidx_main_v24 (ix2 p q) k) * x1 (ridx_main_v24 (ix2 p q) k)) + x2 (ix1 q))
      (Ideal.ofBits .f32 0x00000000#32) = hiddenAt x0 (aggregate x6 x0) (recipPlusOneOf (degree x6)) x1 x2 p q
  rw [Ideal.ofBits_zero_f32]
  unfold hiddenAt
  refine congrArg (fun s => max (s + x2 (ix1 q)) 0) (Finset.sum_congr rfl fun k _ => ?_)
  rw [el k, er k, val_main_v23_apply, val_main_v18_apply, degPlusOne_apply, aggregate_eq, recipPlusOneOf_apply]
  show Ideal.div (aggregate x6 x0 (ix2 p k) + x0 (ix2 p k)) (degree x6 (ix1 p) + 1) * x1 (ix2 k q) = _
  rw [Ideal.mul_one_div (show degree x6 (ix1 p) + 1 ≠ 0 from degree_add_one_ne_zero _ _)]

/-! ## The result -/

theorem value_eq : val_main_v49 (F := Ideal) x0 x1 x2 x3 x4 x5 x6 = value x0 x1 x2 x3 x4 x5 x6 := by
  funext i
  obtain ⟨p, q, rfl⟩ : ∃ (p : Fin 100000) (q : Fin 64), i = ix2 p q := ⟨i 0, i 1, eq_ix2 i⟩
  rw [val_main_v49_apply, val_main_v47_apply, val_main_v44_apply, val_main_v46_apply, val_main_v45_apply, val_main_v48_apply]
  have eb : idx_main_v45 (idx_main_v46 (ix2 p q)) = ix1 q := funext fun a => Fin.ext (by match a with | ⟨0, _⟩ => rfl)
  have el : ∀ k : Fin 128, lidx_main_v44 (ix2 p q) k = ix2 p k := fun k => funext fun a => Fin.ext (by
    match a with | ⟨0, _⟩ => rfl | ⟨1, _⟩ => rfl)
  have er : ∀ k : Fin 128, ridx_main_v44 (ix2 p q) k = ix2 k q := fun k => funext fun a => Fin.ext (by
    match a with | ⟨0, _⟩ => rfl | ⟨1, _⟩ => rfl)
  have el' : ∀ k : Fin 128, lidx_main_v48 (ix2 p q) k = ix2 p k := fun k => funext fun a => Fin.ext (by
    match a with | ⟨0, _⟩ => rfl | ⟨1, _⟩ => rfl)
  have er' : ∀ k : Fin 128, ridx_main_v48 (ix2 p q) k = ix2 k q := fun k => funext fun a => Fin.ext (by
    match a with | ⟨0, _⟩ => rfl | ⟨1, _⟩ => rfl)
  rw [eb, value_apply]
  simp only [Ideal.addf_def]
  unfold outputAt
  rw [← hidden_eq x0 x1 x2 x6]
  refine congrArg₂ (· + ·) ?_ ?_
  · exact congrArg (· + x5 (ix1 q)) (Finset.sum_congr rfl fun k _ => by rw [el k, er k])
  · refine Finset.sum_congr rfl fun k _ => ?_
    rw [el' k, er' k, val_main_v43_apply, maxDegOne_apply, aggregate_hidden_eq, neighbourMeanOf_apply]
    show Ideal.div (aggregate x6 (val_main_v28 (F := Ideal) x0 x1 x2 x6) (ix2 p k)) (max (degree x6 (ix1 p)) 1) * x3 (ix2 k q) = _
    rw [Ideal.mul_one_div (max_one_ne_zero _)]
    rfl

/-- The reference run's result term is `value` of the launch contents of the arguments. -/
theorem result_value (m : (ℓ : Loc nD τ sig) → Buf (Elt Ideal) ℓ) (c : Dev nD) :
    Cert.ReferenceIdeal.Value.res_main_v49 m c
      = value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (val_main_v49_eq m c).trans (value_eq _ _ _ _ _ _ _)

end Cert.ReferenceIdeal.Layers

end
-- ==== Proof.lean ====
/-
  Two-layer GraphSAGE forward pass: a kernel of two row-blocked grids against its jnp reference, equal over the
  extended reals.

  Both programs build, on the host, each node's degree d (a scatter-add of ones over the 1600000 edge targets) and the
  aggregate A(y) of an array y (a gather of y's rows at the edge sources scatter-added at the targets). The reference
  then computes
      h   = relu( ((A(x) + x) / (d + 1)) · W1 + b1 ),
      out = h · W2s + b2 + (A(h) / max(d, 1)) · W2n,
  and the kernel the same with each quotient written as a product with a reciprocal computed on the host,
      h   = relu( ((A(x) + x) · (1 / (d + 1))) · W1 + b1 )        (first grid, 50 blocks of 2000 rows),
      out = h · W2s + b2 + (A(h) · (1 / max(d, 1))) · W2n        (second grid, 50 blocks of 2000 rows).
  At the ideal values a change of float format is the identity and a matrix product is the exact sum over the
  contracted axis, on both sides in the same order of operations. What is left is a / y = a · (1 / y), which holds on
  every extended real a as soon as y is not zero; d is a sum of ones, hence not negative, so d + 1 ≥ 1 and
  max(d, 1) ≥ 1 are never zero. The precondition (finite inputs) is not used.

  The modules: Spec and Graph state the computation as functions of whole arrays; Bodies reads the two grid bodies at
  an index; Region0 and Region1 turn the fifty blocks each grid writes into the whole array; KernelRun re-states the
  kernel's run with its result buffer named and KernelValue composes the host stretches with the two grids; RefValue
  reads the reference one operation at a time and meets the same function.
-/
import proofs.«114832_j64141041599038_1_alg».proof.Defs
import proofs.«114832_j64141041599038_1_alg».proof.Proof.Gen.Kernel
import proofs.«114832_j64141041599038_1_alg».proof.Proof.Gen.Kernel.Frame
import proofs.«114832_j64141041599038_1_alg».proof.Proof.Gen.KernelIdeal
import proofs.«114832_j64141041599038_1_alg».proof.Proof.Gen.KernelIdeal.Frame
import proofs.«114832_j64141041599038_1_alg».proof.Proof.Gen.ReferenceIdeal
import proofs.«114832_j64141041599038_1_alg».proof.Proof.Gen.Pre_finite_inputs
import proofs.«114832_j64141041599038_1_alg».proof.Proof.Gen.ReferenceIdeal.Run
import proofs.«114832_j64141041599038_1_alg».proof.Proof.Gen.ReferenceIdeal.Read
import proofs.«114832_j64141041599038_1_alg».proof.Proof.KernelRun
import proofs.«114832_j64141041599038_1_alg».proof.Proof.KernelValue
import proofs.«114832_j64141041599038_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at `Cert.Sage.value` of the arguments. -/
theorem algebraic : Cert.algebraic_KernelIdeal_ReferenceIdeal := by
  intro m ρ m' ρ' _ hagree
  refine ⟨fun c => Cert.Sage.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Layers.result_value m ρ c), (h c).2⟩)
      (Cert.KernelIdeal.Layers.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Layers.result_value m' c).trans ?_
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
